-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x64 : Shape := ⟨2, ![4096, 64]⟩
abbrev S512 : Shape := ⟨1, ![512]⟩
abbrev S64x4096 : Shape := ⟨2, ![64, 4096]⟩
abbrev S4096x448 : Shape := ⟨2, ![4096, 448]⟩
abbrev S448x4096 : Shape := ⟨2, ![448, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S512 : S_.BroadcastsInDim S512 (![] : Fin 0 → Fin S512.rank)
  reducesTo_S512_S_d0 : S512.ReducesTo [0] S_
  bcast_S_S64x4096 : S_.BroadcastsInDim S64x4096 (![] : Fin 0 → Fin S64x4096.rank)
  reducesTo_S64x4096_S_d0_1 : S64x4096.ReducesTo [0, 1] S_
  bcast_S_S4096x448 : S_.BroadcastsInDim S4096x448 (![] : Fin 0 → Fin S4096x448.rank)
  reducesTo_S4096x448_S_d0_1 : S4096x448.ReducesTo [0, 1] S_
  bcast_S_S448x4096 : S_.BroadcastsInDim S448x4096 (![] : Fin 0 → Fin S448x4096.rank)
  reducesTo_S448x4096_S_d0_1 : S448x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x448 .f32) (main_arg5 : FVec F S448x4096 .f32) (main_arg6 : FVec F S4096 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S4096x448 .f32 := Host.absf main_arg4
  let main_cst_6 : FVec F S_ .f32 := constant S_ .f32 0x7F800000#32
  let main_v20 : FVec F S4096x448 .f32 := broadcastInDim S4096x448 ![] bcast_S_S4096x448 main_cst_6
  let main_v21 : IVec S4096x448 1 := cmpf .olt main_v19 main_v20
  let main_c_7 : IVec S_ 1 := constantI S_ 1 1#1
  let main_v22 : IVec S_ 1 := (fun x v => Host.reduce IntOp.andi x v reducesTo_S4096x448_S_d0_1 h_S_) main_v21 main_c_7
  let main_v23 : IVec S_ 1 := andi main_v18 main_v22
  let main_v24 : FVec F S448x4096 .f32 := Host.absf main_arg5
  let main_cst_8 : FVec F S_ .f32 := constant S_ .f32 0x7F800000#32
  let main_v25 : FVec F S448x4096 .f32 := broadcastInDim S448x4096 ![] bcast_S_S448x4096 main_cst_8
  let main_v26 : IVec S448x4096 1 := cmpf .olt main_v24 main_v25
  let main_c_9 : IVec S_ 1 := constantI S_ 1 1#1
  let main_v27 : IVec S_ 1 := (fun x v => Host.reduce IntOp.andi x v reducesTo_S448x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4x2048x4096 .f32) (main_arg1 : FVec F S4096x64 .f32) (main_arg2 : FVec F S512 .f32) (main_arg3 : FVec F S64x4096 .f32) (main_arg4 : FVec F S4096x448 .f32) (main_arg5 : FVec F S448x4096 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_arg5 main_arg6 main_v13 main_v16
-- ==== Kernel.lean ====
abbrev S4x2048x4096 : Shape := ⟨3, ![4, 2048, 4096]⟩
abbrev S4096x64 : Shape := ⟨2, ![4096, 64]⟩
abbrev S512 : Shape := ⟨1, ![512]⟩
abbrev S64x4096 : Shape := ⟨2, ![64, 4096]⟩
abbrev S4096x448 : Shape := ⟨2, ![4096, 448]⟩
abbrev S448x4096 : Shape := ⟨2, ![448, 4096]⟩
abbrev S4096 : Shape := ⟨1, ![4096]⟩
abbrev S64 : Shape := ⟨1, ![64]⟩
abbrev S1x64 : Shape := ⟨2, ![1, 64]⟩
abbrev S448 : Shape := ⟨1, ![448]⟩
abbrev S1x448 : Shape := ⟨2, ![1, 448]⟩
abbrev S4096x512 : Shape := ⟨2, ![4096, 512]⟩
abbrev S512x4096 : Shape := ⟨2, ![512, 4096]⟩
abbrev S8192x4096 : Shape := ⟨2, ![8192, 4096]⟩
abbrev S1x4096 : Shape := ⟨2, ![1, 4096]⟩
abbrev S256x4096 : Shape := ⟨2, ![256, 4096]⟩
abbrev S256x512 : Shape := ⟨2, ![256, 512]⟩

abbrev nBuf : Space → Nat
  | .hbm => 25
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x64, .f32⟩
  | .hbm, ⟨2, _⟩ => ⟨S512, .f32⟩
  | .hbm, ⟨3, _⟩ => ⟨S64x4096, .f32⟩
  | .hbm, ⟨4, _⟩ => ⟨S4096x448, .f32⟩
  | .hbm, ⟨5, _⟩ => ⟨S448x4096, .f32⟩
  | .hbm, ⟨6, _⟩ => ⟨S4096, .f32⟩
  | .hbm, ⟨7, _⟩ => ⟨S64, .f32⟩
  | .hbm, ⟨8, _⟩ => ⟨S1x64, .f32⟩
  | .hbm, ⟨9, _⟩ => ⟨S4096x64, .f32⟩
  | .hbm, ⟨10, _⟩ => ⟨S4096x64, .f32⟩
  | .hbm, ⟨11, _⟩ => ⟨S448, .f32⟩
  | .hbm, ⟨12, _⟩ => ⟨S1x448, .f32⟩
  | .hbm, ⟨13, _⟩ => ⟨S4096x448, .f32⟩
  | .hbm, ⟨14, _⟩ => ⟨S4096x448, .f32⟩
  | .hbm, ⟨15, _⟩ => ⟨S4096x512, .f32⟩
  | .hbm, ⟨16, _⟩ => ⟨S512x4096, .f32⟩
  | .hbm, ⟨17, _⟩ => ⟨S4096x512, .f32⟩
  | .hbm, ⟨18, _⟩ => ⟨S4096x512, .bf16⟩
  | .hbm, ⟨19, _⟩ => ⟨S512x4096, .f32⟩
  | .hbm, ⟨20, _⟩ => ⟨S512x4096, .bf16⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x512, .bf16⟩
  | .local _ .vmem, ⟨3, _⟩ => ⟨S512x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S512_S64_0 : S512.Slices ![0] S64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S512_S448_64 : S512.Slices ![64] S448
  bcast_S448_S1x448_1 : S448.BroadcastsInDim S1x448 (![1] : Fin 1 → Fin S1x448.rank)
  bcast_S1x448_S4096x448_0_1 : S1x448.BroadcastsInDim S4096x448 (![0, 1] : Fin 2 → Fin S4096x448.rank)
  concatenates_S4096x64_S4096x448_S4096x512_d1 : Shape.Concatenates [S4096x64, S4096x448] S4096x512 1
  concatenates_S64x4096_S448x4096_S512x4096_d0 : Shape.Concatenates [S64x4096, S448x4096] S512x4096 0
  transposes_S512x4096_S4096x512_1_0 : S512x4096.Transposes [1, 0] S4096x512
  bitsLt_bf16_f32 : FTy.bits .bf16 < FTy.bits .f32
  transposes_S4096x512_S512x4096_1_0 : S4096x512.Transposes [1, 0] S512x4096
  shapeCasts_S4x2048x4096_S8192x4096 : S4x2048x4096.ShapeCasts S8192x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S4096x512_S256x512_1_0_0_1_n_n_wf : DotDims.WF S256x4096 S4096x512 S256x512 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S512x4096.size a
  hwx0_2 : ∀ i : grid0.Coords, EltTy.bits .bf16 = 32 ∨ (Rect.block (s := S512x4096) S512x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_v14) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x64 : Shape := ⟨2, ![4096, 64]⟩
abbrev S512 : Shape := ⟨1, ![512]⟩
abbrev S64x4096 : Shape := ⟨2, ![64, 4096]⟩
abbrev S4096x448 : Shape := ⟨2, ![4096, 448]⟩
abbrev S448x4096 : Shape := ⟨2, ![448, 4096]⟩
abbrev S4096 : Shape := ⟨1, ![4096]⟩
abbrev S64 : Shape := ⟨1, ![64]⟩
abbrev S1x64 : Shape := ⟨2, ![1, 64]⟩
abbrev S4096x4096 : Shape := ⟨2, ![4096, 4096]⟩
abbrev S448 : Shape := ⟨1, ![448]⟩
abbrev S1x448 : Shape := ⟨2, ![1, 448]⟩
abbrev S1x1x4096 : Shape := ⟨3, ![1, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x64, .f32⟩
  | .hbm, ⟨2, _⟩ => ⟨S512, .f32⟩
  | .hbm, ⟨3, _⟩ => ⟨S64x4096, .f32⟩
  | .hbm, ⟨4, _⟩ => ⟨S4096x448, .f32⟩
  | .hbm, ⟨5, _⟩ => ⟨S448x4096, .f32⟩
  | .hbm, ⟨6, _⟩ => ⟨S4096, .f32⟩
  | .hbm, ⟨7, _⟩ => ⟨S64, .f32⟩
  | .hbm, ⟨8, _⟩ => ⟨S1x64, .f32⟩
  | .hbm, ⟨9, _⟩ => ⟨S4096x64, .f32⟩
  | .hbm, ⟨10, _⟩ => ⟨S4096x64, .f32⟩
  | .hbm, ⟨11, _⟩ => ⟨S4096x4096, .f32⟩
  | .hbm, ⟨12, _⟩ => ⟨S448, .f32⟩
  | .hbm, ⟨13, _⟩ => ⟨S1x448, .f32⟩
  | .hbm, ⟨14, _⟩ => ⟨S4096x448, .f32⟩
  | .hbm, ⟨15, _⟩ => ⟨S4096x448, .f32⟩
  | .hbm, ⟨16, _⟩ => ⟨S4096x4096, .f32⟩
  | .hbm, ⟨17, _⟩ => ⟨S4096x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  slices_S512_S64_0 : S512.Slices ![0] S64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S512_S448_64 : S512.Slices ![64] S448
  bcast_S448_S1x448_1 : S448.BroadcastsInDim S1x448 (![1] : Fin 1 → Fin S1x448.rank)
  bcast_S1x448_S4096x448_0_1 : S1x448.BroadcastsInDim S4096x448 (![0, 1] : Fin 2 → Fin S4096x448.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x64_S64x4096_S4096x4096_1_0_0_1_n_n_wf : DotDims.WF S4096x64 S64x4096 S4096x4096 [1] [0] [0] [1] [] []
  dot_S4096x448_S448x4096_S4096x4096_1_0_0_1_n_n_wf : DotDims.WF S4096x448 S448x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x448_S448x4096_S4096x4096_1_0_0_1_n_n : DotDims S4096x448 S448x4096 S4096x4096 where
  lhsContracting := [1]
  rhsContracting := [0]
  lhsNonContracting := [0]
  rhsNonContracting := [1]
  lhsBatch := []
  rhsBatch := []
  wf := dot_S4096x448_S448x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The result, as ONE function of the seven argument arrays, index by index.

  With x : [4, 2048, 4096], u_t : [4096, 64], s : [512], v_t : [64, 4096], u_d : [4096, 448], v_d : [448, 4096],
  bias : [4096], the rank axis of length 512 = 64 + 448 carries, at rank k,
    * the row  `rows k i`   : v_t (k, i) for k < 64, v_d (k − 64, i) for k ≥ 64           (the two v's stacked), and
    * the scaled column `cols o k` : u_t (o, k) · s k for k < 64, u_d (o, k − 64) · s k for k ≥ 64  (the two u's side by side, rank k
      scaled by s k: the first 64 entries of s scale u_t, the remaining 448 scale u_d),
  and the result at (b, t, o) is
      ∑ k < 512, (∑ i < 4096, x (b, t, i) · rows k i) · cols o k  +  bias o .
  This is the factored form: x is first contracted with the stacked rows, then with the scaled columns.
-/
import Idealize.ShloMosaic.PureOps.Ideal
import Idealize.ShloMosaic.Lib.ValueIdx

noncomputable section

open scoped BigOperators

namespace Cert.Spec

open Idealize.ShloMosaic Idealize.ShloMosaic.ValueIdx

/-- The two v's stacked along the rank axis: rank `k`'s row, at column `i`. -/
def rows (vt : FVec Ideal ⟨2, ![64, 4096]⟩ .f32) (vd : FVec Ideal ⟨2, ![448, 4096]⟩ .f32) (k : Fin 512) (i : Fin 4096) : EReal :=
  if h : k.val < 64 then vt (ix2 ⟨k.val, h⟩ i)
  else vd (ix2 ⟨k.val - 64, by have := k.isLt; omega⟩ i)

/-- The two u's, each scaled by its part of s, side by side along the rank axis: output `o`'s entry at rank `k`. -/
def cols (ut : FVec Ideal ⟨2, ![4096, 64]⟩ .f32) (s : FVec Ideal ⟨1, ![512]⟩ .f32) (ud : FVec Ideal ⟨2, ![4096, 448]⟩ .f32)
    (o : Fin 4096) (k : Fin 512) : EReal :=
  (if h : k.val < 64 then ut (ix2 o ⟨k.val, h⟩) else ud (ix2 o ⟨k.val - 64, by have := k.isLt; omega⟩)) * s (ix1 k)

/-- Below rank 64 the stacked rows are v_t's. -/
theorem rows_left (vt : FVec Ideal ⟨2, ![64, 4096]⟩ .f32) (vd : FVec Ideal ⟨2, ![448, 4096]⟩ .f32) (k : Fin 64) (i : Fin 4096) :
    rows vt vd (Fin.castAdd 448 k) i = vt (ix2 k i) := by
  unfold rows
  rw [dif_pos (show (Fin.castAdd 448 k).val < 64 from k.isLt)]
  rfl

/-- From rank 64 on they are v_d's. -/
theorem rows_right (vt : FVec Ideal ⟨2, ![64, 4096]⟩ .f32) (vd : FVec Ideal ⟨2, ![448, 4096]⟩ .f32) (k : Fin 448) (i : Fin 4096) :
    rows vt vd (Fin.natAdd 64 k) i = vd (ix2 k i) := by
  unfold rows
  rw [dif_neg (show ¬ (Fin.natAdd 64 k).val < 64 from Nat.not_lt.2 (Nat.le_add_right 64 k.val))]
  exact congrArg (fun k' => vd (ix2 k' i)) (Fin.ext (Nat.add_sub_cancel_left 64 k.val))

/-- Below rank 64 the scaled columns are u_t's, scaled by the first part of s. -/
theorem cols_left (ut : FVec Ideal ⟨2, ![4096, 64]⟩ .f32) (s : FVec Ideal ⟨1, ![512]⟩ .f32) (ud : FVec Ideal ⟨2, ![4096, 448]⟩ .f32)
    (o : Fin 4096) (k : Fin 64) : cols ut s ud o (Fin.castAdd 448 k) = ut (ix2 o k) * s (ix1 (Fin.castAdd 448 k)) := by
  unfold cols
  rw [dif_pos (show (Fin.castAdd 448 k).val < 64 from k.isLt)]
  rfl

/-- From rank 64 on they are u_d's, scaled by the rest of s. -/
theorem cols_right (ut : FVec Ideal ⟨2, ![4096, 64]⟩ .f32) (s : FVec Ideal ⟨1, ![512]⟩ .f32) (ud : FVec Ideal ⟨2, ![4096, 448]⟩ .f32)
    (o : Fin 4096) (k : Fin 448) : cols ut s ud o (Fin.natAdd 64 k) = ud (ix2 o k) * s (ix1 (Fin.natAdd 64 k)) := by
  unfold cols
  rw [dif_neg (show ¬ (Fin.natAdd 64 k).val < 64 from Nat.not_lt.2 (Nat.le_add_right 64 k.val))]
  exact congrArg (fun k' => ud (ix2 o k') * s (ix1 (Fin.natAdd 64 k))) (Fin.ext (Nat.add_sub_cancel_left 64 k.val))

/-- The result over rows r of the flattened [8192, 4096] input: what the region writes, before the final reshape. -/
def flat (x2 : FVec Ideal ⟨2, ![8192, 4096]⟩ .f32) (ut : FVec Ideal ⟨2, ![4096, 64]⟩ .f32) (s : FVec Ideal ⟨1, ![512]⟩ .f32)
    (vt : FVec Ideal ⟨2, ![64, 4096]⟩ .f32) (ud : FVec Ideal ⟨2, ![4096, 448]⟩ .f32) (vd : FVec Ideal ⟨2, ![448, 4096]⟩ .f32)
    (bias : FVec Ideal ⟨1, ![4096]⟩ .f32) : FVec Ideal ⟨2, ![8192, 4096]⟩ .f32 := fun j =>
  (∑ k : Fin 512, (∑ i : Fin 4096, x2 (ix2 (j 0) i) * rows vt vd k i) * cols ut s ud (j 1) k) + bias (ix1 (j 1))

/-- The result, at (b, t, o). -/
def G (x : FVec Ideal ⟨3, ![4, 2048, 4096]⟩ .f32) (ut : FVec Ideal ⟨2, ![4096, 64]⟩ .f32) (s : FVec Ideal ⟨1, ![512]⟩ .f32)
    (vt : FVec Ideal ⟨2, ![64, 4096]⟩ .f32) (ud : FVec Ideal ⟨2, ![4096, 448]⟩ .f32) (vd : FVec Ideal ⟨2, ![448, 4096]⟩ .f32)
    (bias : FVec Ideal ⟨1, ![4096]⟩ .f32) : FVec Ideal ⟨3, ![4, 2048, 4096]⟩ .f32 := fun j =>
  (∑ k : Fin 512, (∑ i : Fin 4096, x (ix3 (j 0) (j 1) i) * rows vt vd k i) * cols ut s ud (j 2) k) + bias (ix1 (j 2))

/-- An array all of whose entries are real numbers. -/
def IsReal {sh : Shape} (a : FVec Ideal sh .f32) : Prop := ∀ i, ∃ r : ℝ, a i = (r : EReal)

/-- Such an array is the coercion of a real-valued one. -/
theorem IsReal.exists_real {sh : Shape} {a : FVec Ideal sh .f32} (h : IsReal a) :
    ∃ r : sh.Idx → ℝ, a = fun i => (r i : EReal) :=
  ⟨fun i => (h i).choose, funext fun i => (h i).choose_spec⟩

end Cert.Spec

end
-- ==== Proof.Finite.lean ====
/-
  What the precondition says: every entry of each of the seven argument arrays is a real number.

  The precondition is the conjunction, over the seven arrays, of "every entry a has |a| < +∞". On the extended reals
  |a| = max a (−a), so |a| < +∞ excludes a = +∞ (then a itself is +∞) and a = −∞ (then −a is +∞): a is a real number.
  A conjunction over all entries that holds, holds at each entry.
-/
import proofs.«121705_j49306224558549_2_alg».proof.Pre_finite_inputs
import proofs.«121705_j49306224558549_2_alg».proof.Proof.Gen.Pre_finite_inputs
import proofs.«121705_j49306224558549_2_alg».proof.Proof.Spec
import Idealize.ShloMosaic.Lib.ReduceAll
import Idealize.ShloMosaic.Lib.ValueIdx

noncomputable section

namespace Cert.Finite

open Idealize.ShloMosaic Idealize.ShloMosaic.ValueIdx Cert.Spec Cert.Pre_finite_inputs

/-- The scalar shape has one index. -/
instance : Subsingleton (S_.Idx) := ⟨fun a b => funext fun d => d.elim0⟩

/-- The word 0x7F800000 is +∞. -/
theorem top_word : Ideal.ofBits .f32 0x7F800000#32 = ⊤ := by simp [Ideal.ofBits, Ideal.ieee]

/-- An extended real whose absolute value is below +∞ is a real number. -/
theorem real_of_abs_lt_top (x : EReal) (h : Ideal.cmp .olt (max x (-x)) ⊤ = 1#1) : ∃ r : ℝ, x = (r : EReal) := by
  unfold Ideal.cmp at h
  have hlt : max x (-x) < ⊤ := by
    by_contra hn
    simp [hn] at h
  rw [max_lt_iff] at hlt
  induction x using EReal.rec
  · exact absurd hlt.2 (by simp)
  · exact ⟨_, rfl⟩
  · exact absurd hlt.1 (by simp)

/-- One array: if "|a| < +∞" conjoined over all its entries holds, every entry is a real number. -/
theorem isReal_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) : IsReal x := fun i => by
  have e := Host.reduce_andi_all _ _ hr hu ix0 h i
  have e' : Ideal.cmp .olt (max (x i) (-(x i))) (Ideal.ofBits .f32 0x7F800000#32) = 1#1 := e
  rw [top_word] at e'
  exact real_of_abs_lt_top _ e'

/-- The precondition, decoded. -/
theorem reals_of_pre (a0 : FVec Ideal S4x2048x4096 .f32) (a1 : FVec Ideal S4096x64 .f32) (a2 : FVec Ideal S512 .f32)
    (a3 : FVec Ideal S64x4096 .f32) (a4 : FVec Ideal S4096x448 .f32) (a5 : FVec Ideal S448x4096 .f32) (a6 : FVec Ideal S4096 .f32)
    (h : Cert.Pre_finite_inputs.fn (F := Ideal) a0 a1 a2 a3 a4 a5 a6 = fun _ => 1#1) :
    IsReal a0 ∧ IsReal a1 ∧ IsReal a2 ∧ IsReal a3 ∧ IsReal a4 ∧ IsReal a5 ∧ IsReal a6 := by
  have h0 := congrFun h ix0
  dsimp only [Cert.Pre_finite_inputs.fn, Cert.Pre_finite_inputs.fn_part1] at h0
  obtain ⟨h05, e6⟩ := IntOp.andi_eq_one.1 h0
  obtain ⟨h04, e5⟩ := IntOp.andi_eq_one.1 h05
  obtain ⟨h03, e4⟩ := IntOp.andi_eq_one.1 h04
  obtain ⟨h02, e3⟩ := IntOp.andi_eq_one.1 h03
  obtain ⟨h01, e2⟩ := IntOp.andi_eq_one.1 h02
  obtain ⟨e0, e1⟩ := IntOp.andi_eq_one.1 h01
  exact ⟨isReal_of_all a0 _ _ _ e0, isReal_of_all a1 _ _ _ e1, isReal_of_all a2 _ _ _ e2, isReal_of_all a3 _ _ _ e3,
    isReal_of_all a4 _ _ _ e4, isReal_of_all a5 _ _ _ e5, isReal_of_all a6 _ _ _ e6⟩

end Cert.Finite

end
-- ==== Proof.FactoredSum.lean ====
/-
  The law that joins the two programs, on the extended reals over REAL entries.

  A row x (entries x i) is multiplied into a weight whose (o, i) entry is a sum of two low-rank pieces,
      W i = ∑ k, a k · v k i + ∑ k', b k' · w k' i .
  Distributing x i over the two sums and exchanging the order of summation gives the factored form
      ∑ i, x i · W i = ∑ k, (∑ i, x i · v k i) · a k + ∑ k', (∑ i, x i · w k' i) · b k' ,
  and the two sums on the right are one sum over the concatenated rank axis (first the k, then the k').
  Distributivity fails on the extended reals at the infinities, so the law is stated for entries that are real numbers:
  it is proved in ℝ and carried to the extended reals by the coercion, which commutes with finite sums and products.
-/
import Idealize.ShloMosaic.PureOps.Ideal

noncomputable section

open scoped BigOperators

namespace Cert.FactoredSum

/-- The coercion of a finite sum of reals is the sum of the coercions. -/
theorem coe_sum {ι : Type*} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The law in ℝ: distribute, then exchange the two summations. -/
theorem factored_real {ι κ₁ κ₂ : Type*} [Fintype ι] [Fintype κ₁] [Fintype κ₂]
    (x : ι → ℝ) (a : κ₁ → ℝ) (v : κ₁ → ι → ℝ) (b : κ₂ → ℝ) (w : κ₂ → ι → ℝ) :
    ∑ i, x i * (∑ k, a k * v k i + ∑ k, b k * w k i)
      = ∑ k, (∑ i, x i * v k i) * a k + ∑ k, (∑ i, x i * w k i) * b k := by
  simp only [mul_add, Finset.mul_sum, Finset.sum_mul, Finset.sum_add_distrib]
  congr 1
  · rw [Finset.sum_comm]
    exact Finset.sum_congr rfl fun k _ => Finset.sum_congr rfl fun i _ => by ring
  · rw [Finset.sum_comm]
    exact Finset.sum_congr rfl fun k _ => Finset.sum_congr rfl fun i _ => by ring

/-- The law on the extended reals, for real entries, with the two rank axes concatenated: `V` and `P` are the
    concatenations along the rank axis (the first `m` ranks the scaled first piece, the next `n` the scaled second). -/
theorem factored {ι : Type*} [Fintype ι] {m n : ℕ}
    (x : ι → ℝ) (a sa : Fin m → ℝ) (v : Fin m → ι → ℝ) (b sb : Fin n → ℝ) (w : Fin n → ι → ℝ)
    (V : Fin (m + n) → ι → EReal) (P : Fin (m + n) → EReal)
    (hV₁ : ∀ k i, V (Fin.castAdd n k) i = (v k i : EReal)) (hV₂ : ∀ k i, V (Fin.natAdd m k) i = (w k i : EReal))
    (hP₁ : ∀ k, P (Fin.castAdd n k) = (a k : EReal) * (sa k : EReal))
    (hP₂ : ∀ k, P (Fin.natAdd m k) = (b k : EReal) * (sb k : EReal)) :
    ∑ i, (x i : EReal) * (∑ k, ((a k : EReal) * (sa k : EReal)) * (v k i : EReal)
        + ∑ k, ((b k : EReal) * (sb k : EReal)) * (w k i : EReal))
      = ∑ k, (∑ i, (x i : EReal) * V k i) * P k := by
  rw [Fin.sum_univ_add]
  simp only [hV₁, hV₂, hP₁, hP₂]
  have h := congrArg (fun r : ℝ => (r : EReal))
    (factored_real x (fun k => a k * sa k) v (fun k => b k * sb k) w)
  simp only [coe_sum, EReal.coe_mul, EReal.coe_add] at h
  exact h

end Cert.FactoredSum

end
-- ==== Proof.RefValue.lean ====
/-
  The reference, read at an index, is the specification — for real entries.

  At (b, t, o) the reference computes
      ∑ i, x (b, t, i) · ( ∑ k < 64, (u_t (o, k) · s k) · v_t (k, i) + ∑ k < 448, (u_d (o, k) · s (64 + k)) · v_d (k, i) ) + bias o :
  it forms the whole weight, entry (o, i), and then contracts x with it. The specification contracts x with the stacked
  rows first and with the scaled columns second. The two agree by the factored-sum law, which needs the entries real.
-/
import proofs.«121705_j49306224558549_2_alg».proof.Proof.Gen.ReferenceIdeal.Read
import proofs.«121705_j49306224558549_2_alg».proof.Proof.Spec
import proofs.«121705_j49306224558549_2_alg».proof.Proof.FactoredSum

noncomputable section

open scoped BigOperators

namespace Cert.RefValue

open Cert.ReferenceIdeal Cert.ReferenceIdeal.Read Idealize.ShloMosaic Idealize.ShloMosaic.ValueIdx Cert.Spec

/-! ## The reference's composed index maps, by coordinates -/

theorem x_idx (b : Fin 4) (t : Fin 2048) (o : Fin 4096) (i : Fin 4096) : lidx_main_v11 (ix3 b t o) i = ix3 b t i :=
  funext fun a => Fin.ext (by match a with | ⟨0, _⟩ => rfl | ⟨1, _⟩ => rfl | ⟨2, _⟩ => rfl)

theorem w_idx (b : Fin 4) (t : Fin 2048) (o : Fin 4096) (i : Fin 4096) : ridx_main_v11 (ix3 b t o) i = ix2 o i :=
  funext fun a => Fin.ext (by match a with | ⟨0, _⟩ => rfl | ⟨1, _⟩ => rfl)

theorem ut_idx (o i : Fin 4096) (k : Fin 64) : lidx_main_v4 (ix2 o i) k = ix2 o k :=
  funext fun a => Fin.ext (by match a with | ⟨0, _⟩ => rfl | ⟨1, _⟩ => rfl)

theorem vt_idx (o i : Fin 4096) (k : Fin 64) : ridx_main_v4 (ix2 o i) k = ix2 k i :=
  funext fun a => Fin.ext (by match a with | ⟨0, _⟩ => rfl | ⟨1, _⟩ => rfl)

theorem st_idx (o : Fin 4096) (k : Fin 64) : idx_main_v0 (idx_main_v1 (idx_main_v2 (ix2 o k))) = ix1 (Fin.castAdd 448 k) :=
  funext fun a => Fin.ext (by match a with | ⟨0, _⟩ => rfl)

theorem ud_idx (o i : Fin 4096) (k : Fin 448) : lidx_main_v9 (ix2 o i) k = ix2 o k :=
  funext fun a => Fin.ext (by match a with | ⟨0, _⟩ => rfl | ⟨1, _⟩ => rfl)

theorem vd_idx (o i : Fin 4096) (k : Fin 448) : ridx_main_v9 (ix2 o i) k = ix2 k i :=
  funext fun a => Fin.ext (by match a with | ⟨0, _⟩ => rfl | ⟨1, _⟩ => rfl)

theorem sd_idx (o : Fin 4096) (k : Fin 448) : idx_main_v5 (idx_main_v6 (idx_main_v7 (ix2 o k))) = ix1 (Fin.natAdd 64 k) :=
  funext fun a => Fin.ext (by match a with | ⟨0, _⟩ => rfl)

theorem bias_idx (b : Fin 4) (t : Fin 2048) (o : Fin 4096) : idx_main_v12 (idx_main_v13 (ix3 b t o)) = ix1 o :=
  funext fun a => Fin.ext (by match a with | ⟨0, _⟩ => rfl)

/-! ## The reference at (b, t, o) -/

/-- The reference's result at (b, t, o): x's row contracted with the weight's row o, the weight formed entry by entry from
    the two scaled low-rank pieces; plus the bias. -/
theorem ref_apply (x0 : FVec Ideal S4x2048x4096 .f32) (x1 : FVec Ideal S4096x64 .f32) (x2 : FVec Ideal S512 .f32)
    (x3 : FVec Ideal S64x4096 .f32) (x4 : FVec Ideal S4096x448 .f32) (x5 : FVec Ideal S448x4096 .f32) (x6 : FVec Ideal S4096 .f32)
    (b : Fin 4) (t : Fin 2048) (o : Fin 4096) :
    val_main_v14 (F := Ideal) x0 x1 x2 x3 x4 x5 x6 (ix3 b t o)
      = (∑ i : Fin 4096, x0 (ix3 b t i) *
          ((∑ k : Fin 64, x1 (ix2 o k) * x2 (ix1 (Fin.castAdd 448 k)) * x3 (ix2 k i))
            + ∑ k : Fin 448, x4 (ix2 o k) * x2 (ix1 (Fin.natAdd 64 k)) * x5 (ix2 k i)))
        + x6 (ix1 o) := by
  rw [val_main_v14_apply, val_main_v11_apply, val_main_v13_apply, val_main_v12_apply]
  simp only [val_main_v10_apply, val_main_v4_apply, val_main_v9_apply, val_main_v3_apply, val_main_v8_apply,
    val_main_v2_apply, val_main_v1_apply, val_main_v0_apply, val_main_v7_apply, val_main_v6_apply, val_main_v5_apply,
    Ideal.addf_def, Ideal.mulf_def, x_idx, w_idx, ut_idx, vt_idx, st_idx, ud_idx, vd_idx, sd_idx, bias_idx]

/-! ## The reference is the specification -/

/-- For arrays of real entries the reference's result is the specification's. (The bias enters by one addition on both
    sides and need not be real.) -/
theorem ref_eq_G (x0 : FVec Ideal S4x2048x4096 .f32) (x1 : FVec Ideal S4096x64 .f32) (x2 : FVec Ideal S512 .f32)
    (x3 : FVec Ideal S64x4096 .f32) (x4 : FVec Ideal S4096x448 .f32) (x5 : FVec Ideal S448x4096 .f32) (x6 : FVec Ideal S4096 .f32)
    (h0 : IsReal x0) (h1 : IsReal x1) (h2 : IsReal x2) (h3 : IsReal x3) (h4 : IsReal x4) (h5 : IsReal x5) :
    val_main_v14 (F := Ideal) x0 x1 x2 x3 x4 x5 x6 = G x0 x1 x2 x3 x4 x5 x6 := by
  obtain ⟨r0, rfl⟩ := h0.exists_real
  obtain ⟨r1, rfl⟩ := h1.exists_real
  obtain ⟨r2, rfl⟩ := h2.exists_real
  obtain ⟨r3, rfl⟩ := h3.exists_real
  obtain ⟨r4, rfl⟩ := h4.exists_real
  obtain ⟨r5, rfl⟩ := h5.exists_real
  funext j
  obtain ⟨b, t, o, rfl⟩ : ∃ (b : Fin 4) (t : Fin 2048) (o : Fin 4096), j = ix3 b t o := ⟨j 0, j 1, j 2, eq_ix3 j⟩
  rw [ref_apply]
  exact congrArg (fun z => z + x6 (ix1 o))
    (Cert.FactoredSum.factored (ι := Fin 4096) (m := 64) (n := 448)
      (fun i => r0 (ix3 b t i)) (fun k => r1 (ix2 o k)) (fun k => r2 (ix1 (Fin.castAdd 448 k))) (fun k i => r3 (ix2 k i))
      (fun k => r4 (ix2 o k)) (fun k => r2 (ix1 (Fin.natAdd 64 k))) (fun k i => r5 (ix2 k i))
      (rows (fun i => (r3 i : EReal)) (fun i => (r5 i : EReal)))
      (cols (fun i => (r1 i : EReal)) (fun i => (r2 i : EReal)) (fun i => (r4 i : EReal)) o)
      (fun k i => rows_left _ _ k i) (fun k i => rows_right _ _ k i)
      (fun k => cols_left _ _ _ o k) (fun k => cols_right _ _ _ o k))

end Cert.RefValue

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.Body.lean ====
/-
  The kernel body's arithmetic, read at one entry of its output block.

  On a block of 256 rows the body computes  (x · R) · C + bias  with two matrix products into zero accumulators: x the
  256 × 4096 block of the input rows, R the 4096 × 512 matrix of stacked rows transposed, C the 512 × 4096 matrix of scaled
  columns transposed, the bias one row laid along every row of the block. The changes of float format between the steps
  are the identity on the extended reals. So at entry (p, q) of the block the body's value is
      ∑ k < 512, (∑ i < 4096, x (p, i) · R (i, k)) · C (k, q)  +  bias (0, q) .
-/
import proofs.«121705_j49306224558549_2_alg».proof.Proof.Gen.KernelIdeal.Skeleton
import proofs.«121705_j49306224558549_2_alg».proof.Proof.LibPlainDot
import Idealize.ShloMosaic.Lib.Pipeline.Value
import Idealize.ShloMosaic.Lib.ValueIdx
import Idealize.ShloMosaic.Lib.ValueLayout

noncomputable section

open scoped BigOperators

namespace Cert.KernelValue

open Cert.KernelIdeal Cert.KernelIdeal.Gen Idealize.ShloMosaic Idealize.ShloMosaic.ValueIdx

/-- The body's stored value at entry (p, q) of the block. -/
theorem body_apply (x0 : Vec Ideal S256x4096 .f32) (x1 : Vec Ideal S4096x512 .bf16) (x2 : Vec Ideal S512x4096 .bf16)
    (x3 : Vec Ideal S1x4096 .f32) (p : Fin 256) (q : Fin 4096) :
    k0_pay1 (F := Ideal) x0 x1 x2 x3 (ix2 p q)
      = (∑ k : Fin 512, (∑ i : Fin 4096, x0 (ix2 p i) * x1 (ix2 i k)) * x2 (ix2 k q)) + x3 (ix2 (0 : Fin 1) q) := by
  unfold k0_pay1
  simp only [shapeCast_self]
  rw [addf_apply]
  refine congr (congrArg HAdd.hAdd ?_) ?_
  · refine (Cert.LibPlainDot.matmul_plain (φ₁ := .bf16) (φ₂ := .bf16) 256 512 4096 none _ _ (ix2 p q)).trans ?_
    refine Finset.sum_congr rfl fun k _ => ?_
    refine congrArg (· * x2 (ix2 k q)) ?_
    exact Cert.LibPlainDot.matmul_plain (φ₁ := .bf16) (φ₂ := .bf16) 256 4096 512 none _ _ (ix2 p k)
  · exact broadcastTo_1b_ab_apply x3 _ p q

/-- The same at any index of the block. -/
theorem body_at (x0 : Vec Ideal S256x4096 .f32) (x1 : Vec Ideal S4096x512 .bf16) (x2 : Vec Ideal S512x4096 .bf16)
    (x3 : Vec Ideal S1x4096 .f32) (j : S256x4096.Idx) :
    k0_pay1 (F := Ideal) x0 x1 x2 x3 j
      = (∑ k : Fin 512, (∑ i : Fin 4096, x0 (ix2 (j 0) i) * x1 (ix2 i k)) * x2 (ix2 k (j 1))) + x3 (ix2 (0 : Fin 1) (j 1)) := by
  obtain ⟨p, q, rfl⟩ : ∃ (p : Fin 256) (q : Fin 4096), j = ix2 p q := ⟨j 0, j 1, eq_ix2 j⟩
  exact body_apply x0 x1 x2 x3 p q

end Cert.KernelValue

end
-- ==== Proof.Inputs.lean ====
/-
  The arrays the region finds, read at an index.

  Before the region the host lays out four arrays from the arguments:
    * the input flattened to [8192, 4096] (a reshape: row b · 2048 + t is x's row (b, t));
    * R : [4096, 512], the transpose of v_t stacked on v_d — entry (i, k) is `rows k i`;
    * C : [512, 4096], the transpose of u_t · s[:64] beside u_d · s[64:] — entry (k, q) is `cols q k`;
    * the bias as one row [1, 4096] — entry (0, q) is bias q.
  (A change of float format is the identity on the extended reals.)
-/
import proofs.«121705_j49306224558549_2_alg».proof.Proof.Gen.KernelIdeal.Frame
import proofs.«121705_j49306224558549_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelValue

open Cert.KernelIdeal Cert.KernelIdeal.Gen Idealize.ShloMosaic Idealize.ShloMosaic.TcCoe Idealize.SL.Sem
open Idealize.ShloMosaic.ValueIdx Idealize.ShloMosaic.StableHlo Cert.Spec

/-- A slice [off, off + w) of a vector, laid along every one of R rows: entry (q, k) is the vector's entry off + k. -/
theorem slice_rows_apply {α : Type} {N w R : ℕ} (off : ℕ) (x : (⟨1, ![N]⟩ : Shape).Idx → α)
    (hs : (⟨1, ![N]⟩ : Shape).Slices ![off] ⟨1, ![w]⟩)
    (hb1 : (⟨1, ![w]⟩ : Shape).BroadcastsInDim ⟨2, ![1, w]⟩ (![1] : Fin 1 → Fin 2))
    (hb2 : (⟨2, ![1, w]⟩ : Shape).BroadcastsInDim ⟨2, ![R, w]⟩ (![0, 1] : Fin 2 → Fin 2))
    (hw : w ≠ 1) (q : Fin R) (k : Fin w) (n : Fin N) (hn : n.val = off + k.val) :
    broadcastInDim ⟨2, ![R, w]⟩ ![0, 1] hb2 (broadcastInDim ⟨2, ![1, w]⟩ ![1] hb1 (extractStridedSlice ⟨1, ![w]⟩ ![off] x hs)) (ix2 q k)
      = x (ix1 n) := by
  refine (broadcastInDim_apply _ hb2 _ (ix2 q k) (ix2 (0 : Fin 1) k) fun a => ?_).trans
    ((broadcastInDim_apply _ hb1 _ (ix2 (0 : Fin 1) k) (ix1 k) fun a => ?_).trans
      (extractStridedSlice_apply _ x hs (ix1 k) (ix1 n) fun a => ?_))
  · match a with
    | ⟨0, _⟩ => show 0 = if (1 : ℕ) = 1 then 0 else q.val; rw [if_pos rfl]
    | ⟨1, _⟩ => show k.val = if w = 1 then 0 else k.val; rw [if_neg hw]
  · match a with
    | ⟨0, _⟩ => show k.val = if w = 1 then 0 else k.val; rw [if_neg hw]
  · match a with
    | ⟨0, _⟩ => show n.val = off + k.val; exact hn

variable (m : (ℓ : Loc nD τ sig) → Buf (Elt Ideal) ℓ)

/-- R at (i, k): the stacked rows, transposed. -/
theorem R_apply (c : Dev nD) (i : Fin 4096) (k : Fin 512) :
    (V m c main_v11 : S4096x512.Idx → EReal) (ix2 i k)
      = rows (m ((c : Thread nD τ).loc main_arg3)) (m ((c : Thread nD τ).loc main_arg5)) k i := by
  have e : @Eq (S4096x512.Idx → EReal) (V m c main_v11)
      (truncf (F := Ideal) .bf16 (transpose S4096x512 [1, 0]
          (concatenate S512x4096 0 [⟨S64x4096, m ((c : Thread nD τ).loc main_arg3)⟩, ⟨S448x4096, m ((c : Thread nD τ).loc main_arg5)⟩]
            concatenates_S64x4096_S448x4096_S512x4096_d0) transposes_S512x4096_S4096x512_1_0) bitsLt_bf16_f32) := by
    show StableHlo.after hostOps0 (fun b => m (c, b)) (Proc.devRef .tc main_v11) = _
    after_results
  rw [e, truncf_apply, transpose_ix2_apply]
  unfold rows
  by_cases h : k.val < 64
  · rw [dif_pos h]
    exact concatenate_pair_apply_left (s₁ := S64x4096) (s₂ := S448x4096) 0 _ _ _ (ix2 k i) rfl (ix2 ⟨k.val, h⟩ i)
      (fun b => match b with | ⟨0, _⟩ => rfl | ⟨1, _⟩ => rfl)
  · rw [dif_neg h]
    exact concatenate_pair_apply_right (s₁ := S64x4096) (s₂ := S448x4096) 0 _ _ _ (ix2 k i) rfl rfl (ix2 ⟨k.val - 64, by have := k.isLt; omega⟩ i)
      (fun b hb => match b, hb with | ⟨0, _⟩, hb => absurd rfl hb | ⟨1, _⟩, _ => rfl)
      (by show k.val - 64 + 64 = k.val; omega)

/-- C at (k, q): the scaled columns, transposed. -/
theorem C_apply (c : Dev nD) (k : Fin 512) (q : Fin 4096) :
    (V m c main_v13 : S512x4096.Idx → EReal) (ix2 k q)
      = cols (m ((c : Thread nD τ).loc main_arg1)) (m ((c : Thread nD τ).loc main_arg2)) (m ((c : Thread nD τ).loc main_arg4)) q k := by
  have e : @Eq (S512x4096.Idx → EReal) (V m c main_v13)
      (truncf (F := Ideal) .bf16 (transpose S512x4096 [1, 0]
          (concatenate S4096x512 1
            [⟨S4096x64, mulf (F := Ideal) (m ((c : Thread nD τ).loc main_arg1))
                (broadcastInDim S4096x64 ![0, 1] bcast_S1x64_S4096x64_0_1 (broadcastInDim S1x64 ![1] bcast_S64_S1x64_1
                  (extractStridedSlice S64 ![0] (m ((c : Thread nD τ).loc main_arg2)) slices_S512_S64_0)))⟩,
              ⟨S4096x448, mulf (F := Ideal) (m ((c : Thread nD τ).loc main_arg4))
                (broadcastInDim S4096x448 ![0, 1] bcast_S1x448_S4096x448_0_1 (broadcastInDim S1x448 ![1] bcast_S448_S1x448_1
                  (extractStridedSlice S448 ![64] (m ((c : Thread nD τ).loc main_arg2)) slices_S512_S448_64)))⟩]
            concatenates_S4096x64_S4096x448_S4096x512_d1) transposes_S4096x512_S512x4096_1_0) bitsLt_bf16_f32) := by
    show StableHlo.after hostOps0 (fun b => m (c, b)) (Proc.devRef .tc main_v13) = _
    after_results
  rw [e, truncf_apply, transpose_ix2_apply]
  unfold cols
  by_cases h : k.val < 64
  · rw [dif_pos h]
    refine (concatenate_pair_apply_left (s₁ := S4096x64) (s₂ := S4096x448) 1 _ _ _ (ix2 q k) rfl (ix2 q ⟨k.val, h⟩)
      (fun b => match b with | ⟨0, _⟩ => rfl | ⟨1, _⟩ => rfl)).trans ?_
    rw [mulf_apply, slice_rows_apply (N := 512) (w := 64) (R := 4096) 0 _ _ _ _ (by decide) q ⟨k.val, h⟩ k
      (by show k.val = 0 + k.val; omega)]
  · rw [dif_neg h]
    refine (concatenate_pair_apply_right (s₁ := S4096x64) (s₂ := S4096x448) 1 _ _ _ (ix2 q k) rfl rfl (ix2 q ⟨k.val - 64, by have := k.isLt; omega⟩)
      (fun b hb => match b, hb with | ⟨0, _⟩, _ => rfl | ⟨1, _⟩, hb => absurd rfl hb)
      (by show k.val - 64 + 64 = k.val; omega)).trans ?_
    rw [mulf_apply, slice_rows_apply (N := 512) (w := 448) (R := 4096) 64 _ _ _ _ (by decide) q
      ⟨k.val - 64, by have := k.isLt; omega⟩ k (by show k.val = 64 + (k.val - 64); omega)]

/-- The bias row at (0, q). -/
theorem bias_apply (c : Dev nD) (u : Fin 1) (q : Fin 4096) :
    (V m c main_v15 : S1x4096.Idx → EReal) (ix2 u q) = m ((c : Thread nD τ).loc main_arg6) (ix1 q) := by
  have e : (V m c main_v15 : S1x4096.Idx → EReal)
      = shapeCast S1x4096 (m ((c : Thread nD τ).loc main_arg6)) shapeCasts_S4096_S1x4096 := by
    show StableHlo.after hostOps0 (fun b => m (c, b)) (Proc.devRef .tc main_v15) = _
    after_results
    rfl
  rw [e]
  exact shapeCast_a_1a_apply _ _ u q

/-- The flattened input at row b · 2048 + t is x's row (b, t). -/
theorem x2_apply (c : Dev nD) (b : Fin 4) (t : Fin 2048) (i : Fin 4096) (r : Fin 8192) (hr : r.val = b.val * 2048 + t.val) :
    (V m c main_v14 : S8192x4096.Idx → EReal) (ix2 r i) = m ((c : Thread nD τ).loc main_arg0) (ix3 b t i) := by
  have e : (V m c main_v14 : S8192x4096.Idx → EReal)
      = shapeCast S8192x4096 (m ((c : Thread nD τ).loc main_arg0)) shapeCasts_S4x2048x4096_S8192x4096 := by
    show StableHlo.after hostOps0 (fun b => m (c, b)) (Proc.devRef .tc main_v14) = _
    after_results
    rfl
  rw [e]
  refine shapeCast_apply _ _ (ix2 r i) (ix3 b t i) ?_
  rw [Shape.rowMajor_val_two, Shape.rowMajor_val_three]
  show (b.val * 2048 + t.val) * 4096 + i.val = r.val * 4096 + i.val
  rw [hr]

end Cert.KernelValue

end
-- ==== Proof.Blocks.lean ====
/-
  From blocks to the region's output array.

  The grid has 32 points; point t works on rows 256 t … 256 t + 255. Its input block of the flattened x is those rows; the
  other three inputs (R, C, the bias row) are whole arrays, the same at every point. What the body leaves at entry (p, q) of
  its output block is therefore the specification's flattened form at row 256 t + p, column q; the 32 output blocks tile
  the [8192, 4096] array (row r lies in the block of point r / 256), so the array ends holding the flattened form everywhere.
-/
import proofs.«121705_j49306224558549_2_alg».proof.Proof.Gen.KernelIdeal.Frame
import proofs.«121705_j49306224558549_2_alg».proof.Proof.Body
import proofs.«121705_j49306224558549_2_alg».proof.Proof.Inputs
import proofs.«121705_j49306224558549_2_alg».proof.Proof.Spec
import Idealize.ShloMosaic.Lib.Pipeline.Value

noncomputable section

open scoped BigOperators

namespace Cert.KernelValue

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What the region's output array ends holding: the flattened form over the arrays the region finds. -/
def regionOut (c : Dev nD) : S8192x4096.Idx → EReal :=
  flat (V m c main_v14) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The block index maps over the grid: the input rows and the output move with the point along axis 0, everything else
    stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Point t's block of the flattened input is rows 256 t … of it. -/
theorem xblock_apply (c : Dev nD) (t : Fin cfg0.N) (z : S256x4096.Idx) (k : S8192x4096.Idx)
    (hk0 : (k 0).val = t.val * 256 + (z 0).val) (hk1 : (k 1).val = (z 1).val) :
    (iblk m c 0 t : Vec Ideal S256x4096 .f32) z = (V m c main_v14 : S8192x4096.Idx → EReal) k := by
  obtain ⟨e00, e01, -⟩ := idx_facts t
  unfold iblk
  rw [View.read_apply]
  show V m c main_v14 _ = V m c main_v14 _
  congr 1
  funext a
  apply Fin.ext
  match a with
  | ⟨0, _⟩ => show win0_0.index t (0 : Fin 2) * 256 + 1 * (z 0).val = (k 0).val; rw [e00, hk0]; omega
  | ⟨1, _⟩ => show win0_0.index t (1 : Fin 2) * 4096 + 1 * (z 1).val = (k 1).val; rw [e01, hk1]; omega

/-- Every point's block of R is R. -/
theorem Rblock_apply (c : Dev nD) (t : Fin cfg0.N) (z : S4096x512.Idx) :
    (iblk m c 1 t : Vec Ideal S4096x512 .bf16) z = (V m c main_v11 : S4096x512.Idx → EReal) z := by
  obtain ⟨-, -, e10, e11, -⟩ := idx_facts t
  unfold iblk
  rw [View.read_apply]
  show V m c main_v11 _ = V m c main_v11 _
  congr 1
  funext a
  apply Fin.ext
  match a with
  | ⟨0, _⟩ => show win0_1.index t (0 : Fin 2) * 4096 + 1 * (z 0).val = (z 0).val; rw [e10]; omega
  | ⟨1, _⟩ => show win0_1.index t (1 : Fin 2) * 512 + 1 * (z 1).val = (z 1).val; rw [e11]; omega

/-- Every point's block of C is C. -/
theorem Cblock_apply (c : Dev nD) (t : Fin cfg0.N) (z : S512x4096.Idx) :
    (iblk m c 2 t : Vec Ideal S512x4096 .bf16) z = (V m c main_v13 : S512x4096.Idx → EReal) z := by
  obtain ⟨-, -, -, -, e20, e21, -⟩ := idx_facts t
  unfold iblk
  rw [View.read_apply]
  show V m c main_v13 _ = V m c main_v13 _
  congr 1
  funext a
  apply Fin.ext
  match a with
  | ⟨0, _⟩ => show win0_2.index t (0 : Fin 2) * 512 + 1 * (z 0).val = (z 0).val; rw [e20]; omega
  | ⟨1, _⟩ => show win0_2.index t (1 : Fin 2) * 4096 + 1 * (z 1).val = (z 1).val; rw [e21]; omega

/-- Every point's block of the bias row is the bias row. -/
theorem biasblock_apply (c : Dev nD) (t : Fin cfg0.N) (z : S1x4096.Idx) :
    (iblk m c 3 t : Vec Ideal S1x4096 .f32) z = (V m c main_v15 : S1x4096.Idx → EReal) z := by
  obtain ⟨-, -, -, -, -, -, e30, e31, -⟩ := idx_facts t
  unfold iblk
  rw [View.read_apply]
  show V m c main_v15 _ = V m c main_v15 _
  congr 1
  funext a
  apply Fin.ext
  match a with
  | ⟨0, _⟩ => show win0_3.index t (0 : Fin 2) * 1 + 1 * (z 0).val = (z 0).val; rw [e30]; omega
  | ⟨1, _⟩ => show win0_3.index t (1 : Fin 2) * 4096 + 1 * (z 1).val = (z 1).val; rw [e31]; omega

/-- One entry of one point's output, over variables: if the point's input blocks read as the flattened input's row `e 0`,
    the stacked rows, the scaled columns at `e 1` and the bias at `e 1`, the body's value at `j` is the flattened form at `e`. -/
theorem point_eq (X0 : FVec Ideal ⟨2, ![8192, 4096]⟩ .f32) (a1 : FVec Ideal ⟨2, ![4096, 64]⟩ .f32) (a2 : FVec Ideal ⟨1, ![512]⟩ .f32)
    (a3 : FVec Ideal ⟨2, ![64, 4096]⟩ .f32) (a4 : FVec Ideal ⟨2, ![4096, 448]⟩ .f32) (a5 : FVec Ideal ⟨2, ![448, 4096]⟩ .f32)
    (a6 : FVec Ideal ⟨1, ![4096]⟩ .f32)
    (x0 : Vec Ideal S256x4096 .f32) (x1 : Vec Ideal S4096x512 .bf16) (x2 : Vec Ideal S512x4096 .bf16) (x3 : Vec Ideal S1x4096 .f32)
    (j : S256x4096.Idx) (e : S8192x4096.Idx)
    (h0 : ∀ i, x0 (ix2 (j 0) i) = X0 (ix2 (e 0) i))
    (h1 : ∀ i k, x1 (ix2 i k) = rows a3 a5 k i)
    (h2 : ∀ k, x2 (ix2 k (j 1)) = cols a1 a2 a4 (e 1) k)
    (h3 : x3 (ix2 (0 : Fin 1) (j 1)) = a6 (ix1 (e 1))) :
    k0_pay1 (F := Ideal) x0 x1 x2 x3 j = flat X0 a1 a2 a3 a4 a5 a6 e := by
  rw [body_at]
  unfold flat
  simp only [h0, h1, h2, h3]

/-- WHAT POINT t WRITES BACK is its block of `regionOut`. -/
theorem flushed_eq (c : Dev nD) (t : Fin cfg0.N) :
    (dats m 0 c).flushed 4 t = ((cfg0.win 4).blk t).view.read (Elt Ideal) (regionOut m c) := by
  show (cfg0.win 4).cut (grid0.coords t) ((dats m 0 c).after 4 t) = _
  rw [after0_4]
  unfold out0_4
  rw [View.canon_unit_zero hz]
  simp only [View.ld_unit_zero (S := S256x4096) hz, View.ld_unit_zero (S := S4096x512) hz,
    View.ld_unit_zero (S := S512x4096) hz, View.ld_unit_zero (S := S1x4096) hz]
  obtain ⟨-, -, -, -, -, -, -, -, e40, e41⟩ := idx_facts t
  funext y
  rw [View.read_apply]
  unfold regionOut
  have hq : (((cfg0.win 4).blk t).view.emb y) 1 = ((cfg0.win 4).xinj (grid0.coords t) y) 1 :=
    Fin.ext (by show win0_4.index t (1 : Fin 2) * 4096 + 1 * (y 1).val = (y 1).val; rw [e41]; omega)
  refine point_eq _ _ _ _ _ _ _ (iblk m c 0 t) (iblk m c 1 t) (iblk m c 2 t) (iblk m c 3 t) _ _ (fun i => ?_) (fun i k => ?_) (fun k => ?_) ?_
  · refine xblock_apply m c t _ _ ?_ rfl
    show win0_4.index t (0 : Fin 2) * 256 + 1 * (y 0).val = t.val * 256 + (y 0).val
    rw [e40]; omega
  · exact (Rblock_apply m c t _).trans (R_apply m c i k)
  · rw [hq]
    exact (Cblock_apply m c t _).trans (C_apply m c k _)
  · rw [hq]
    exact (biasblock_apply m c t _).trans (bias_apply m c 0 _)

/-- An index of the array is in point t's block iff each coordinate is in the block's range on its axis. -/
theorem mem_blk (t : Fin cfg0.N) (i : S8192x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v16).slice (win0_4.rect t)).set ↔ _
  rw [View.set_slice_whole, Rect.mem_set_unit]
  exact Iff.rfl

/-- Row r lies in the block of point r / 256. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    rw [e40, ht]; omega
  | ⟨1, _⟩ =>
    show win0_4.index t (1 : Fin 2) * 4096 ≤ (i 1).val ∧ (i 1).val < win0_4.index t (1 : Fin 2) * 4096 + 4096
    rw [e41]; omega

/-- THE REGION'S OUTPUT ARRAY after the run. -/
theorem final (c : Dev nD) : (dats m 0 c).arrAt 4 cfg0.N = regionOut m c :=
  (dats m 0 c).arrAt_eq_of_cover 4 (regionOut m c) (fun t _ => flushed_eq m c t) cover

end Cert.KernelValue

end
-- ==== Proof.KernelRun.lean ====
/-
  The kernel's run, with its result named.

  After the region the host reshapes the [8192, 4096] output to [4, 2048, 4096]: entry (b, t, o) is entry (b · 2048 + t, o)
  of the region's output. Row b · 2048 + t of the flattened input is x's row (b, t), so the flattened form there is the
  specification at (b, t, o). The arguments end as they were launched.
-/
import proofs.«121705_j49306224558549_2_alg».proof.Proof.Blocks
import Idealize.ShloMosaic.Lib.StableHlo.Run

noncomputable section

open scoped BigOperators

namespace Cert.KernelValue

open Cert.KernelIdeal Cert.KernelIdeal.Gen Idealize.ShloMosaic Idealize.ShloMosaic.TcCoe Idealize.SL.Sem
open Idealize.ShloMosaic.ValueIdx Idealize.ShloMosaic.StableHlo Cert.Spec
open Idealize.ShloMosaic.Pipeline (Dat)

/-- The flattened form at row r is the specification at (b, t), when row r of the flattened input is x's row (b, t). -/
theorem flat_eq_G (X0 : FVec Ideal ⟨2, ![8192, 4096]⟩ .f32) (x : FVec Ideal ⟨3, ![4, 2048, 4096]⟩ .f32)
    (ut : FVec Ideal ⟨2, ![4096, 64]⟩ .f32) (s : FVec Ideal ⟨1, ![512]⟩ .f32) (vt : FVec Ideal ⟨2, ![64, 4096]⟩ .f32)
    (ud : FVec Ideal ⟨2, ![4096, 448]⟩ .f32) (vd : FVec Ideal ⟨2, ![448, 4096]⟩ .f32) (bias : FVec Ideal ⟨1, ![4096]⟩ .f32)
    (b : Fin 4) (t : Fin 2048) (o : Fin 4096) (r : Fin 8192) (h : ∀ i, X0 (ix2 r i) = x (ix3 b t i)) :
    flat X0 ut s vt ud vd bias (ix2 r o) = G x ut s vt ud vd bias (ix3 b t o) := by
  show (∑ k : Fin 512, (∑ i : Fin 4096, X0 (ix2 r i) * rows vt vd k i) * cols ut s ud o k) + bias (ix1 o)
    = (∑ k : Fin 512, (∑ i : Fin 4096, x (ix3 b t i) * rows vt vd k i) * cols ut s ud o k) + bias (ix1 o)
  simp only [h]

variable (m : (ℓ : Loc nD τ sig) → Buf (Elt Ideal) ℓ) (ρ : Dev nD → PrngReg)

/-- The specification of the launched arguments. -/
abbrev result (c : Dev nD) : S4x2048x4096.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What @main's result buffer holds after the host's reshape of the region's output. -/
theorem result_eq (c : Dev nD) :
    @Eq (S4x2048x4096.Idx → EReal) (Pipeline.afterTail₀ cfgs (dats m) 0 (V0 m) [hostOps1] c main_v17) (result m c) := by
  have hw : @Eq (S8192x4096.Idx → EReal)
      (Pipeline.withArrays (cfgs 0).spec c (V0 m c) (fun w => (dats m 0 c).arrAt w (cfgs 0).N) (Proc.devRef .tc main_v16))
      (regionOut m c) :=
    (Pipeline.withArrays_arr spec0 launch0.win.arr_inj c _ _ 4).trans (final m c)
  have e : @Eq (S4x2048x4096.Idx → EReal) (Pipeline.afterTail₀ cfgs (dats m) 0 (V0 m) [hostOps1] c main_v17)
      (shapeCast S4x2048x4096 (regionOut m c) shapeCasts_S8192x4096_S4x2048x4096) := by
    rw [← hw]
    unfold Pipeline.afterTail₀
    show StableHlo.after hostOps1 _ (Proc.devRef .tc main_v17) = _
    after_results
    rfl
  rw [e]
  funext j
  obtain ⟨b, t, o, rfl⟩ : ∃ (b : Fin 4) (t : Fin 2048) (o : Fin 4096), j = ix3 b t o := ⟨j 0, j 1, j 2, eq_ix3 j⟩
  have hr : b.val * 2048 + t.val < 8192 := by have := b.isLt; have := t.isLt; omega
  refine (shapeCast_apply _ _ (ix3 b t o) (ix2 ⟨b.val * 2048 + t.val, hr⟩ o) ?_).trans ?_
  · rw [Shape.rowMajor_val_two, Shape.rowMajor_val_three]
    rfl
  · exact flat_eq_G _ _ _ _ _ _ _ _ b t o ⟨b.val * 2048 + t.val, hr⟩ (fun i => x2_apply m c b t i _ rfl)

/-- THE RUN: every weakly fair execution terminates with the result buffer at the specification of the arguments, and the
    arguments unchanged. -/
theorem run : θ_run defs (onTc (τ := τ) (main (F := Ideal))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelValue

end
-- ==== Proof.lean ====
/-
  A low-rank linear layer: the factored form against the materialized weight.

  The reference forms the whole [4096, 4096] weight from two scaled low-rank pieces,
      W (o, i) = ∑ k < 64, (u_t (o, k) · s k) · v_t (k, i) + ∑ k < 448, (u_d (o, k) · s (64 + k)) · v_d (k, i) ,
  and computes  out (b, t, o) = ∑ i, x (b, t, i) · W (o, i) + bias o.  The kernel never forms W: over a rank axis of
  length 512 = 64 + 448 it stacks v_t on v_d, sets u_t · s[:64] beside u_d · s[64:], and on blocks of 256 rows computes
  (x · Vᵀ) · Pᵀ + bias by two matrix products. On the extended reals a change of float format is the identity, so the
  kernel's result at (b, t, o) is  ∑ k < 512, (∑ i, x (b, t, i) · V (k, i)) · P (o, k) + bias o  (Spec.lean).

  The two agree by distributing x (b, t, i) over the two rank sums and exchanging the summations (FactoredSum.lean).
  Distributivity fails at the infinities, so this is where the precondition is used: every entry of every input is a real
  number (Finite.lean). The reference side is read index by index off its generated run (RefValue.lean); the kernel side is
  the body's arithmetic at an entry (Body.lean), the arrays the host lays out before the region (Inputs.lean), the 32
  row blocks tiling the region's output (Blocks.lean), and the reshape after the region (KernelRun.lean).

  Both kernel frames are the generated ones; the reference's frame is its generated run with the result dropped; the
  idealization rewrote nothing, so `preserves` is trivial.
-/
import proofs.«121705_j49306224558549_2_alg».proof.Defs
import proofs.«121705_j49306224558549_2_alg».proof.Proof.Gen.Kernel
import proofs.«121705_j49306224558549_2_alg».proof.Proof.Gen.Kernel.Skeleton
import proofs.«121705_j49306224558549_2_alg».proof.Proof.Gen.Kernel.Launch
import proofs.«121705_j49306224558549_2_alg».proof.Proof.Gen.Kernel.Points
import proofs.«121705_j49306224558549_2_alg».proof.Proof.Gen.Kernel.Frame
import proofs.«121705_j49306224558549_2_alg».proof.Proof.Gen.KernelIdeal
import proofs.«121705_j49306224558549_2_alg».proof.Proof.Gen.KernelIdeal.Skeleton
import proofs.«121705_j49306224558549_2_alg».proof.Proof.Gen.KernelIdeal.Launch
import proofs.«121705_j49306224558549_2_alg».proof.Proof.Gen.KernelIdeal.Points
import proofs.«121705_j49306224558549_2_alg».proof.Proof.Gen.KernelIdeal.Frame
import proofs.«121705_j49306224558549_2_alg».proof.Proof.Gen.ReferenceIdeal
import proofs.«121705_j49306224558549_2_alg».proof.Proof.Gen.ReferenceIdeal.Run
import proofs.«121705_j49306224558549_2_alg».proof.Proof.Gen.ReferenceIdeal.Read
import proofs.«121705_j49306224558549_2_alg».proof.Proof.Gen.Pre_finite_inputs
import proofs.«121705_j49306224558549_2_alg».proof.Proof.Finite
import proofs.«121705_j49306224558549_2_alg».proof.Proof.RefValue
import proofs.«121705_j49306224558549_2_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, all of real entries, the kernel ends at the specification of the arguments
    and the reference at its own term of them — which, for real entries, is the specification. -/
theorem algebraic : Cert.algebraic_KernelIdeal_ReferenceIdeal := by
  intro m ρ m' ρ' hpre hagree
  refine ⟨fun c => Cert.KernelValue.result m c, Cert.KernelValue.run m ρ, ?_⟩
  refine (θ_run Cert.ReferenceIdeal.defs _ _).mono (fun _ h c => ⟨?_, (h c).2⟩)
    (Cert.ReferenceIdeal.Value.run (F := Ideal) m' ρ')
  obtain ⟨r0, r1, r2, r3, r4, r5, -⟩ := Cert.Finite.reals_of_pre _ _ _ _ _ _ _ (hpre c)
  obtain ⟨a0, a1, a2, a3, a4, a5, a6⟩ := hagree c
  rw [(h c).1, Cert.ReferenceIdeal.Read.val_main_v14_eq, a0, a1, a2, a3, a4, a5, a6]
  exact Cert.RefValue.ref_eq_G _ _ _ _ _ _ _ r0 r1 r2 r3 r4 r5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
